-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x4096 : Shape := ⟨3, ![64, 512, 4096]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S64x512x4096 : S_.BroadcastsInDim S64x512x4096 (![] : Fin 0 → Fin S64x512x4096.rank)
  reducesTo_S64x512x4096_S_d0_1_2 : S64x512x4096.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S64x512x4096 .f32) (main_arg1 : FVec F S32x512 .f32) (main_arg2 : FVec F S32 .f32) (main_arg3 : FVec F S512x32 .f32) (main_arg4 : FVec F S512 .f32) : IVec S_ 1 :=
  let main_v0 : FVec F S64x512x4096 .f32 := Host.absf main_arg0
  let main_cst : FVec F S_ .f32 := constant S_ .f32 0x7F800000#32
  let main_v1 : FVec F S64x512x4096 .f32 := broadcastInDim S64x512x4096 ![] bcast_S_S64x512x4096 main_cst
  let main_v2 : IVec S64x512x4096 1 := cmpf .olt main_v0 main_v1
  let main_c : IVec S_ 1 := constantI S_ 1 1#1
  let main_v3 : IVec S_ 1 := (fun x v => Host.reduce IntOp.andi x v reducesTo_S64x512x4096_S_d0_1_2 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512x32 .f32 := Host.absf main_arg3
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg4 main_v13 main_v16
-- ==== Kernel.lean ====
abbrev S64x512x4096 : Shape := ⟨3, ![64, 512, 4096]⟩
abbrev S32x512 : Shape := ⟨2, ![32, 512]⟩
abbrev S32 : Shape := ⟨1, ![32]⟩
abbrev S512x32 : Shape := ⟨2, ![512, 32]⟩
abbrev S512 : Shape := ⟨1, ![512]⟩
abbrev S32x1 : Shape := ⟨2, ![32, 1]⟩
abbrev S512x1 : Shape := ⟨2, ![512, 1]⟩
abbrev S1x512x4096 : Shape := ⟨3, ![1, 512, 4096]⟩
abbrev S512x4096 : Shape := ⟨2, ![512, 4096]⟩

abbrev nBuf : Space → Nat
  | .hbm => 8
  | .vmem => 8
  | .smem => 0
  | _ => 0

abbrev bufTy : (tb : Table) → Fin (tcTables nBuf tb) → BufTy
  | .hbm, ⟨0, _⟩ => ⟨S64x512x4096, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S32x1, .f32⟩
  | .hbm, ⟨6, _⟩ => ⟨S512x1, .f32⟩
  | .hbm, ⟨7, _⟩ => ⟨S64x512x4096, .f32⟩
  | .local _ .vmem, ⟨0, _⟩ => ⟨S1x512x4096, .f32⟩
  | .local _ .vmem, ⟨1, _⟩ => ⟨S1x512x4096, .f32⟩
  | .local _ .vmem, ⟨2, _⟩ => ⟨S32x512, .f32⟩
  | .local _ .vmem, ⟨3, _⟩ => ⟨S32x1, .f32⟩
  | .local _ .vmem, ⟨4, _⟩ => ⟨S512x32, .f32⟩
  | .local _ .vmem, ⟨5, _⟩ => ⟨S512x1, .f32⟩
  | .local _ .vmem, ⟨6, _⟩ => ⟨S1x512x4096, .f32⟩
  | .local _ .vmem, ⟨7, _⟩ => ⟨S1x512x4096, .f32⟩
  | _, _ => ⟨S64x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32_S32x1 : S32.ShapeCasts S32x1
  shapeCasts_S512_S512x1 : S512.ShapeCasts S512x1
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  reduces_S512x4096_S512 : S512x4096.Reduces [1] S512
  inb_S32x512_S32x512_0_0 : ∀ a, (![0, 0] : Fin 2 → Nat) a + S32x512.size a ≤ S32x512.size a
  h_S32x512 : 0 < S32x512.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S512x32_S512x32_0_0 : ∀ a, (![0, 0] : Fin 2 → Nat) a + S512x32.size a ≤ S512x32.size a
  h_S512x32 : 0 < S512x32.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  shapeCasts_S512x4096_S1x512x4096 : S512x4096.ShapeCasts S1x512x4096
  dot_S32x512_S512x1_S32x1_1_0_0_1_n_n_wf : DotDims.WF S32x512 S512x1 S32x1 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S64x512x4096.size a
  hwx0_0 : ∀ i : grid0.Coords, EltTy.bits .f32 = 32 ∨ (Rect.block (s := S64x512x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S512x32.size a
  hwx0_3 : ∀ i : grid0.Coords, EltTy.bits .f32 = 32 ∨ (Rect.block (s := S512x32) S512x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x4096.size a ≤ S64x512x4096.size a
  hwx0_5 : ∀ i : grid0.Coords, EltTy.bits .f32 = 32 ∨ (Rect.block (s := S64x512x4096) S1x512x4096.size (cc0_transform_5 i) (hinb0_5 i)).WholeWords (EltTy.packing .f32)

variable [Facts₀]

def dot_S32x512_S512x1_S32x1_1_0_0_1_n_n : DotDims S32x512 S512x1 S32x1 where
  lhsContracting := [1]
  rhsContracting := [0]
  lhsNonContracting := [0]
  rhsNonContracting := [1]
  lhsBatch := []
  rhsBatch := []
  wf := dot_S32x512_S512x1_S32x1_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x4096 : Shape := ⟨3, ![64, 512, 4096]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩
abbrev S64x512 : Shape := ⟨2, ![64, 512]⟩
abbrev S64x32 : Shape := ⟨2, ![64, 32]⟩
abbrev S1x32 : Shape := ⟨2, ![1, 32]⟩
abbrev S1x512 : Shape := ⟨2, ![1, 512]⟩
abbrev S64x512x1 : Shape := ⟨3, ![64, 512, 1]⟩

abbrev nBuf : Space → Nat
  | .hbm => 34
  | .vmem => 0
  | .smem => 0
  | _ => 0

abbrev bufTy : (tb : Table) → Fin (tcTables nBuf tb) → BufTy
  | .hbm, ⟨0, _⟩ => ⟨S64x512x4096, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S_, .f32⟩
  | .hbm, ⟨6, _⟩ => ⟨S64x512, .f32⟩
  | .hbm, ⟨7, _⟩ => ⟨S_, .f32⟩
  | .hbm, ⟨8, _⟩ => ⟨S64x512, .f32⟩
  | .hbm, ⟨9, _⟩ => ⟨S64x512, .f32⟩
  | .hbm, ⟨10, _⟩ => ⟨S512x32, .f32⟩
  | .hbm, ⟨11, _⟩ => ⟨S64x32, .f32⟩
  | .hbm, ⟨12, _⟩ => ⟨S1x32, .f32⟩
  | .hbm, ⟨13, _⟩ => ⟨S64x32, .f32⟩
  | .hbm, ⟨14, _⟩ => ⟨S64x32, .f32⟩
  | .hbm, ⟨15, _⟩ => ⟨S_, .f32⟩
  | .hbm, ⟨16, _⟩ => ⟨S64x32, .f32⟩
  | .hbm, ⟨17, _⟩ => ⟨S64x32, .f32⟩
  | .hbm, ⟨18, _⟩ => ⟨S32x512, .f32⟩
  | .hbm, ⟨19, _⟩ => ⟨S64x512, .f32⟩
  | .hbm, ⟨20, _⟩ => ⟨S1x512, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512x1, .f32⟩
  | .hbm, ⟨32, _⟩ => ⟨S64x512x4096, .f32⟩
  | .hbm, ⟨33, _⟩ => ⟨S64x512x4096, .f32⟩
  | _, _ => ⟨S64x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S64x512x4096_S64x512_d2 : S64x512x4096.ReducesTo [2] S64x512
  h_S_ : 0 < S_.numel
  bcast_S_S64x512 : S_.BroadcastsInDim S64x512 (![] : Fin 0 → Fin S64x512.rank)
  transposes_S32x512_S512x32_1_0 : S32x512.Transposes [1, 0] S512x32
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  transposes_S512x32_S32x512_1_0 : S512x32.Transposes [1, 0] S32x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S64x512_S64x512x1_0_1 : S64x512.BroadcastsInDim S64x512x1 (![0, 1] : Fin 2 → Fin S64x512x1.rank)
  bcast_S64x512x1_S64x512x4096_0_1_2 : S64x512x1.BroadcastsInDim S64x512x4096 (![0, 1, 2] : Fin 3 → Fin S64x512x4096.rank)
  dot_S64x512_S512x32_S64x32_1_0_0_1_n_n_wf : DotDims.WF S64x512 S512x32 S64x32 [1] [0] [0] [1] [] []
  dot_S64x32_S32x512_S64x512_1_0_0_1_n_n_wf : DotDims.WF S64x32 S32x512 S64x512 [1] [0] [0] [1] [] []

variable [Facts₀]

def dot_S64x512_S512x32_S64x32_1_0_0_1_n_n : DotDims S64x512 S512x32 S64x32 where
  lhsContracting := [1]
  rhsContracting := [0]
  lhsNonContracting := [0]
  rhsNonContracting := [1]
  lhsBatch := []
  rhsBatch := []
  wf := dot_S64x512_S512x32_S64x32_1_0_0_1_n_n_wf
def dot_S64x32_S32x512_S64x512_1_0_0_1_n_n : DotDims S64x32 S32x512 S64x512 where
  lhsContracting := [1]
  rhsContracting := [0]
  lhsNonContracting := [0]
  rhsNonContracting := [1]
  lhsBatch := []
  rhsBatch := []
  wf := dot_S64x32_S32x512_S64x512_1_0_0_1_n_n_wf

class Facts : Prop extends Facts₀ where

variable [Facts]
-- ==== Proof.Excite.lean ====
/-
  The squeeze-and-excitation layer as ONE function of its five arrays, over the extended reals.

  For an input x of shape [64, 512, 4096] (batch, channel, position), weights w1 [32, 512], w2 [512, 32] and biases
  b1 [32], b2 [512]:

    pooled b c   = (sum over the 4096 positions l of x(b, c, l)) / 4096            the channel's mean
    hiddenUnit b j = max (sum over the 512 channels c of pooled b c * w1(j, c)  +  b1(j)) 0
    gate b c     = sigma (sum over the 32 hidden units j of hiddenUnit b j * w2(c, j)  +  b2(c))
    scaled(b, c, l) = x(b, c, l) * gate b c

  where sigma y = 1 / (1 + exp (-y)), and 4096 and 0 are written as their 32-bit words so that neither side of a
  comparison ever has to evaluate them. Each product is written with the activation on the left and the weight on the
  right; the other order is the same number, multiplication on the extended reals being commutative at the infinities
  too (`sum_mul_comm`).
-/
import Idealize.ShloMosaic.PureOps.Ideal
import Idealize.ShloMosaic.Lib.ValueIdx

noncomputable section

namespace Cert.Excite

open Idealize.ShloMosaic Idealize.ShloMosaic.ValueIdx

/-- The mean of channel `c` of batch `b` over its 4096 positions: the sum, divided by 4096. -/
def pooled (x : FVec Ideal ⟨3, ![64, 512, 4096]⟩ .f32) (b : Fin 64) (c : Fin 512) : EReal :=
  Ideal.div (∑ l : Fin 4096, x (ix3 b c l)) (Ideal.ofBits .f32 0x45800000#32)

/-- Hidden unit `j` of batch `b`: the means of the 512 channels weighted by row `j` of `w1`, plus the bias, cut
    off below at zero. -/
def hiddenUnit (x : FVec Ideal ⟨3, ![64, 512, 4096]⟩ .f32) (w1 : FVec Ideal ⟨2, ![32, 512]⟩ .f32) (b1 : FVec Ideal ⟨1, ![32]⟩ .f32)
    (b : Fin 64) (j : Fin 32) : EReal :=
  max ((∑ c : Fin 512, pooled x b c * w1 (ix2 j c)) + b1 (ix1 j)) (Ideal.ofBits .f32 0x00000000#32)

/-- The gate of channel `c` of batch `b`: the 32 hidden units weighted by row `c` of `w2`, plus the bias, through
    the sigmoid. -/
def gate (x : FVec Ideal ⟨3, ![64, 512, 4096]⟩ .f32) (w1 : FVec Ideal ⟨2, ![32, 512]⟩ .f32) (b1 : FVec Ideal ⟨1, ![32]⟩ .f32)
    (w2 : FVec Ideal ⟨2, ![512, 32]⟩ .f32) (b2 : FVec Ideal ⟨1, ![512]⟩ .f32) (b : Fin 64) (c : Fin 512) : EReal :=
  Ideal.logistic ((∑ j : Fin 32, hiddenUnit x w1 b1 b j * w2 (ix2 c j)) + b2 (ix1 c))

/-- The layer's result: every entry of the input times the gate of its batch and channel. -/
def scaled (x : FVec Ideal ⟨3, ![64, 512, 4096]⟩ .f32) (w1 : FVec Ideal ⟨2, ![32, 512]⟩ .f32) (b1 : FVec Ideal ⟨1, ![32]⟩ .f32)
    (w2 : FVec Ideal ⟨2, ![512, 32]⟩ .f32) (b2 : FVec Ideal ⟨1, ![512]⟩ .f32) : FVec Ideal ⟨3, ![64, 512, 4096]⟩ .f32 :=
  fun i => x i * gate x w1 b1 w2 b2 (i 0) (i 1)

/-- The result at coordinates. -/
theorem scaled_ix3 (x : FVec Ideal ⟨3, ![64, 512, 4096]⟩ .f32) (w1 : FVec Ideal ⟨2, ![32, 512]⟩ .f32) (b1 : FVec Ideal ⟨1, ![32]⟩ .f32)
    (w2 : FVec Ideal ⟨2, ![512, 32]⟩ .f32) (b2 : FVec Ideal ⟨1, ![512]⟩ .f32) (b : Fin 64) (c : Fin 512) (l : Fin 4096) :
    scaled x w1 b1 w2 b2 (ix3 b c l) = x (ix3 b c l) * gate x w1 b1 w2 b2 b c := rfl

/-- A weighted sum does not depend on which factor of each product is written first. -/
theorem sum_mul_comm {n : Nat} (f g : Fin n → EReal) : ∑ k : Fin n, f k * g k = ∑ k : Fin n, g k * f k :=
  Finset.sum_congr rfl fun k _ => mul_comm (f k) (g k)

end Cert.Excite

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.ExciteReference.lean ====
/-
  The reference program computes the squeeze-and-excitation layer (`Excite.scaled`), stage by stage.

  Its operations, read at an index: the sum over the last axis and the division by 4096 give the channel means
  (`pooled`); the product with the transposed first weight matrix, the broadcast bias and the maximum with zero give
  the hidden units (`hiddenUnit`); the product with the transposed second weight matrix, the bias and the quotient
  1 / (1 + exp (-y)) — which is the sigmoid of y — give the gates (`gate`); the last product scales the input. A
  transpose only swaps the two coordinates at which a weight is read, and a broadcast only drops the coordinates the
  operand does not have; the host's sum starts from the word 0, which is the number 0.
-/
import proofs.«160893_j19164144075614_1_alg».proof.Proof.Gen.ReferenceIdeal.Read
import proofs.«160893_j19164144075614_1_alg».proof.Proof.Excite
import proofs.«160893_j19164144075614_1_alg».proof.Proof.LibSpellings
import Idealize.ShloMosaic.PureOps.Ideal.Laws

noncomputable section

namespace Cert.ExciteReference

open Cert.ReferenceIdeal Cert.ReferenceIdeal.Read Idealize.ShloMosaic Idealize.ShloMosaic.ValueIdx Cert.Excite

variable (x0 : (⟨S64x512x4096, .f32⟩ : BufTy).Contents (Elt Ideal)) (x1 : (⟨S32x512, .f32⟩ : BufTy).Contents (Elt Ideal))
  (x2 : (⟨S32, .f32⟩ : BufTy).Contents (Elt Ideal)) (x3 : (⟨S512x32, .f32⟩ : BufTy).Contents (Elt Ideal))
  (x4 : (⟨S512, .f32⟩ : BufTy).Contents (Elt Ideal))

/-- The quotient of the sum over the positions by 4096 is the channel's mean. -/
theorem pooled_eq (b : Fin 64) (c : Fin 512) : val_main_v2 (F := Ideal) x0 (ix2 b c) = pooled x0 b c := by
  rw [val_main_v2_apply, val_main_v0_apply, val_main_v1_apply, val_main_cst_0_apply, val_main_cst_apply]
  rw [Ideal.hostDivf_def, Ideal.ofBits_def, Ideal.ofBits_def, Ideal.ofBits_zero_f32, zero_add]
  have e : ∀ k : Fin 4096, idx_main_v0 (ix2 b c) k = ix3 b c k := fun k => funext fun a => Fin.ext (by
    match a with | ⟨0, _⟩ => rfl | ⟨1, _⟩ => rfl | ⟨2, _⟩ => rfl)
  simp only [e]
  rfl

/-- The first product, bias and cut-off give the hidden units: the transposed weight at (c, j) is the weight at (j, c). -/
theorem hidden_eq (b : Fin 64) (j : Fin 32) : val_main_v8 (F := Ideal) x0 x1 x2 (ix2 b j) = hiddenUnit x0 x1 x2 b j := by
  rw [val_main_v8_apply, val_main_v7_apply, val_main_v4_apply, val_main_v6_apply, val_main_v5_apply,
    val_main_call0_v0_apply, val_main_call0_cst_apply]
  have el : ∀ k : Fin 512, lidx_main_v4 (ix2 b j) k = ix2 b k := fun k => funext fun a => Fin.ext (by
    match a with | ⟨0, _⟩ => rfl | ⟨1, _⟩ => rfl)
  have er : ∀ k : Fin 512, idx_main_v3 (ridx_main_v4 (ix2 b j) k) = ix2 j k := fun k => funext fun a => Fin.ext (by
    match a with | ⟨0, _⟩ => rfl | ⟨1, _⟩ => rfl)
  have eb : idx_main_v5 (idx_main_v6 (ix2 b j)) = ix1 j := funext fun a => Fin.ext (by
    match a with | ⟨0, _⟩ => rfl)
  simp only [el, pooled_eq x0, val_main_v3_apply, er, eb, Ideal.maximumf_def, Ideal.addf_def, Ideal.ofBits_def]
  rfl

/-- The second product, bias and the quotient 1 / (1 + exp (-y)) give the gates. -/
theorem gate_eq (b : Fin 64) (c : Fin 512) : val_main_v19 (F := Ideal) x0 x1 x2 x3 x4 (ix2 b c) = gate x0 x1 x2 x3 x4 b c := by
  rw [val_main_v19_apply, val_main_v18_apply, val_main_cst_2_apply, val_main_v17_apply, val_main_v16_apply,
    val_main_cst_1_apply, val_main_v15_apply, val_main_v14_apply]
  rw [Cert.LibSpellings.hostQuotient_eq_logistic, Ideal.logistic_def]
  rw [val_main_v13_apply, val_main_v10_apply, val_main_v12_apply, val_main_v11_apply]
  have el : ∀ k : Fin 32, lidx_main_v10 (ix2 b c) k = ix2 b k := fun k => funext fun a => Fin.ext (by
    match a with | ⟨0, _⟩ => rfl | ⟨1, _⟩ => rfl)
  have er : ∀ k : Fin 32, idx_main_v9 (ridx_main_v10 (ix2 b c) k) = ix2 c k := fun k => funext fun a => Fin.ext (by
    match a with | ⟨0, _⟩ => rfl | ⟨1, _⟩ => rfl)
  have eb : idx_main_v11 (idx_main_v12 (ix2 b c)) = ix1 c := funext fun a => Fin.ext (by
    match a with | ⟨0, _⟩ => rfl)
  simp only [el, hidden_eq x0 x1 x2, val_main_v9_apply, er, eb, Ideal.addf_def]
  rfl

/-- The reference's result is the layer's. -/
theorem reference_eq : val_main_v22 (F := Ideal) x0 x1 x2 x3 x4 = scaled x0 x1 x2 x3 x4 := by
  funext i
  obtain ⟨b, c, l, rfl⟩ : ∃ (b : Fin 64) (c : Fin 512) (l : Fin 4096), i = ix3 b c l := ⟨i 0, i 1, i 2, eq_ix3 i⟩
  rw [val_main_v22_apply, val_main_v21_apply, val_main_v20_apply, scaled_ix3]
  have e : idx_main_v20 (idx_main_v21 (ix3 b c l)) = ix2 b c := funext fun a => Fin.ext (by
    match a with | ⟨0, _⟩ => rfl | ⟨1, _⟩ => rfl)
  rw [e, gate_eq]
  rfl

end Cert.ExciteReference

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.ExciteBody.lean ====
/-
  What the kernel body computes on one batch, read at an index.

  At a grid point the body holds one batch's block x0 of shape [1, 512, 4096], the two weight matrices x1 [32, 512]
  and x3 [512, 32], and the two biases as columns x2 [32, 1] and x4 [512, 1]. Its result at (0, c, l) is

      x0(0, c, l) * sigma (sum_j x3(c, j) * max (sum_c' x1(j, c') * (sum_l' x0(0, c', l') / 4096) + x2(j, 0)) 0 + x4(c, 0)).

  The steps: dropping the block's leading unit axis and adding it back only rename indices; the sum over the last
  axis, made a column, is read at (c', 0); the two matrix products into a zero accumulator are plain sums over the
  contracted axis; the gate's column is repeated along the 4096 positions. Written with the weight first in each
  product, where the layer's specification has the activation first: the same sums, multiplication being commutative.
  So if the blocks hold batch `b` of the arrays (the biases as columns), the result is the layer's at (b, c, l).
-/
import proofs.«160893_j19164144075614_1_alg».proof.Proof.Gen.KernelIdeal.Skeleton
import proofs.«160893_j19164144075614_1_alg».proof.Proof.Excite
import proofs.«160893_j19164144075614_1_alg».proof.Proof.LibColumn
import proofs.«160893_j19164144075614_1_alg».proof.Proof.LibPlainDot
import Idealize.ShloMosaic.Lib.ValueLayout
import Idealize.ShloMosaic.Lib.Pipeline.Value
import Idealize.ShloMosaic.PureOps.Ideal.Laws

noncomputable section

namespace Cert.ExciteBody

open Cert.KernelIdeal Cert.KernelIdeal.Gen Idealize.ShloMosaic Idealize.ShloMosaic.ValueIdx Cert.Excite

variable (x0 : FVec Ideal S1x512x4096 .f32) (x1 : FVec Ideal S32x512 .f32) (x2 : FVec Ideal S32x1 .f32)
  (x3 : FVec Ideal S512x32 .f32) (x4 : FVec Ideal S512x1 .f32)

/-- The block without its leading unit axis. -/
def rows : FVec Ideal S512x4096 .f32 := shapeCast S512x4096 x0 shapeCasts_S1x512x4096_S512x4096

/-- The column of channel means: each row summed over its 4096 positions, divided by 4096. -/
def meanCol : FVec Ideal S512x1 .f32 :=
  divf (shapeCast S512x1 (multiReduction (F := Ideal) .add [1] S512 (rows x0) 0x00000000#32 reduces_S512x4096_S512 (.inl rfl) rfl)
    shapeCasts_S512_S512x1) (broadcast S512x1 (Scalar.ofBits (F := Ideal) .f32 0x45800000#32))

/-- The column of hidden units. -/
def hiddenCol : FVec Ideal S32x1 .f32 :=
  maximumf (addf (matmul (F := Ideal) dot_S32x512_S512x1_S32x1_1_0_0_1_n_n none x1 (meanCol x0) (constant (F := Ideal) S32x1 .f32 0x00000000#32))
    (shapeCast S32x1 x2 shapeCasts_S32x1_S32x1)) (broadcast S32x1 (Scalar.ofBits (F := Ideal) .f32 0x00000000#32))

/-- The column of gates. -/
def gateCol : FVec Ideal S512x1 .f32 :=
  logistic (addf (matmul (F := Ideal) dot_S512x32_S32x1_S512x1_1_0_0_1_n_n none x3 (hiddenCol x0 x1 x2) (constant (F := Ideal) S512x1 .f32 0x00000000#32))
    (shapeCast S512x1 x4 shapeCasts_S512x1_S512x1))

/-- The body's stored value is the block's rows times the gate column repeated along the positions, the unit axis put back. -/
theorem pay_eq : k0_pay1 (F := Ideal) x0 x1 x2 x3 x4
    = shapeCast S1x512x4096 (mulf (rows x0) (broadcastTo S512x4096 (gateCol x0 x1 x2 x3 x4) broadcasts_S512x1_S512x4096))
        shapeCasts_S512x4096_S1x512x4096 := rfl

/-- A row of the block. -/
theorem rows_apply (c : Fin 512) (l : Fin 4096) : rows x0 (ix2 c l) = x0 (ix3 (0 : Fin 1) c l) :=
  shapeCast_1ab_ab_apply x0 shapeCasts_S1x512x4096_S512x4096 c l

/-- The mean column at (c, 0): the row's sum over its positions, divided by 4096. -/
theorem meanCol_apply (c : Fin 512) :
    meanCol x0 (ix2 c (0 : Fin 1)) = Ideal.div (∑ l : Fin 4096, x0 (ix3 (0 : Fin 1) c l)) (Ideal.ofBits .f32 0x45800000#32) := by
  unfold meanCol
  rw [divf_apply, Cert.LibColumn.shapeCast_a_a1_apply]
  refine congrArg (fun s => Ideal.div s _) ?_
  refine (Ideal.multiReduction_add_single (rows x0) 0x00000000#32 reduces_S512x4096_S512 (.inl rfl) rfl (ix1 c)).trans ?_
  refine Finset.sum_congr rfl fun l _ => ?_
  have e : reduces_S512x4096_S512.lift (ix1 c) l = ix2 c l := funext fun a => Fin.ext (by
    match a with | ⟨0, _⟩ => rfl | ⟨1, _⟩ => rfl)
  rw [e]
  exact rows_apply x0 c l

/-- The hidden column at (j, 0). -/
theorem hiddenCol_apply (j : Fin 32) :
    hiddenCol x0 x1 x2 (ix2 j (0 : Fin 1))
      = max ((∑ c : Fin 512, x1 (ix2 j c) * Ideal.div (∑ l : Fin 4096, x0 (ix3 (0 : Fin 1) c l)) (Ideal.ofBits .f32 0x45800000#32))
          + x2 (ix2 j (0 : Fin 1))) (Ideal.ofBits .f32 0x00000000#32) := by
  unfold hiddenCol
  rw [maximumf_apply, addf_apply, shapeCast_self]
  refine congrArg (fun s => max (s + _) _) ?_
  refine (Cert.LibPlainDot.matmul_plain 32 512 1 none x1 (meanCol x0) (ix2 j (0 : Fin 1))).trans ?_
  exact Finset.sum_congr rfl fun c _ => congrArg (x1 (ix2 j c) * ·) (meanCol_apply x0 c)

/-- The sigmoid of a column, entry by entry. -/
theorem logistic_apply {s : Shape} (v : FVec Ideal s .f32) (i : s.Idx) : logistic v i = Ideal.logistic (v i) := rfl

/-- The gate column at (c, 0). -/
theorem gateCol_apply (c : Fin 512) :
    gateCol x0 x1 x2 x3 x4 (ix2 c (0 : Fin 1))
      = Ideal.logistic ((∑ j : Fin 32, x3 (ix2 c j) * max ((∑ c' : Fin 512, x1 (ix2 j c') *
            Ideal.div (∑ l : Fin 4096, x0 (ix3 (0 : Fin 1) c' l)) (Ideal.ofBits .f32 0x45800000#32)) + x2 (ix2 j (0 : Fin 1)))
            (Ideal.ofBits .f32 0x00000000#32)) + x4 (ix2 c (0 : Fin 1))) := by
  unfold gateCol
  rw [logistic_apply, addf_apply, shapeCast_self]
  refine congrArg (fun s => Ideal.logistic (s + _)) ?_
  refine (Cert.LibPlainDot.matmul_plain 512 32 1 none x3 (hiddenCol x0 x1 x2) (ix2 c (0 : Fin 1))).trans ?_
  exact Finset.sum_congr rfl fun j _ => congrArg (x3 (ix2 c j) * ·) (hiddenCol_apply x0 x1 x2 j)

/-- THE BODY AT AN INDEX, against the layer: if the blocks hold batch `b` of the arrays `X`, `W1`, `B1`, `W2`, `B2` — the
    biases as columns — the value stored at (u, c, l) is the layer's result at (b, c, l). -/
theorem body_at (X : FVec Ideal ⟨3, ![64, 512, 4096]⟩ .f32) (W1 : FVec Ideal ⟨2, ![32, 512]⟩ .f32) (B1 : FVec Ideal ⟨1, ![32]⟩ .f32)
    (W2 : FVec Ideal ⟨2, ![512, 32]⟩ .f32) (B2 : FVec Ideal ⟨1, ![512]⟩ .f32) (b : Fin 64)
    (h0 : ∀ (c : Fin 512) (l : Fin 4096), x0 (ix3 (0 : Fin 1) c l) = X (ix3 b c l))
    (h1 : ∀ (j : Fin 32) (c : Fin 512), x1 (ix2 j c) = W1 (ix2 j c))
    (h2 : ∀ j : Fin 32, x2 (ix2 j (0 : Fin 1)) = B1 (ix1 j))
    (h3 : ∀ (c : Fin 512) (j : Fin 32), x3 (ix2 c j) = W2 (ix2 c j))
    (h4 : ∀ c : Fin 512, x4 (ix2 c (0 : Fin 1)) = B2 (ix1 c))
    (u : Fin 1) (c : Fin 512) (l : Fin 4096) :
    k0_pay1 (F := Ideal) x0 x1 x2 x3 x4 (ix3 u c l) = scaled X W1 B1 W2 B2 (ix3 b c l) := by
  rw [pay_eq, shapeCast_ab_1ab_apply, mulf_apply, rows_apply, Cert.LibColumn.broadcastTo_a1_ab_apply, gateCol_apply,
    scaled_ix3, h0 c l, h4 c]
  refine congrArg (fun s => X (ix3 b c l) * Ideal.logistic (s + _)) ?_
  unfold hiddenUnit pooled
  refine Finset.sum_congr rfl fun j _ => ?_
  rw [h2 j, mul_comm]
  refine congrArg (fun s => max (s + _) _ * _) ?_ |>.trans (congrArg (_ * ·) (h3 c j))
  refine Finset.sum_congr rfl fun c' _ => ?_
  rw [h1 j c', mul_comm]
  exact congrArg (fun s => Ideal.div s _ * _) (Finset.sum_congr rfl fun l' _ => h0 c' l')

end Cert.ExciteBody

end
-- ==== Proof.ExciteArray.lean ====
/-
  From the blocks each grid point writes back to the whole result array.

  The grid has 64 points, one per batch. At point t the input window holds batch t of x, a [1, 512, 4096] block; the
  weight windows hold their whole matrices at every point; the two bias windows hold the biases as [32, 1] and
  [512, 1] columns, arrays that the two reshapes in front of the kernel wrote from the bias vectors; and the output
  window's block is batch t of the result. So what point t writes back is batch t of the layer's result
  (`ExciteBody.body_at`), the 64 blocks tile the [64, 512, 4096] array — index (b, c, l) lies in the block of point b
  — and the array after the run is the layer's result, entry by entry.
-/
import proofs.«160893_j19164144075614_1_alg».proof.Proof.Gen.KernelIdeal.Value
import proofs.«160893_j19164144075614_1_alg».proof.Proof.ExciteBody
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.ExciteArray

open Cert.KernelIdeal Cert.KernelIdeal.Gen Cert.KernelIdeal.Value Idealize.ShloMosaic.ValueIdx Cert.Excite

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The layer's result of the five argument arrays as launched on core `c`. -/
abbrev result (c : Dev nD) : Buf (Elt Ideal) ((c : Thread nD τ).loc main_v2) :=
  scaled (m ((c : Thread nD τ).loc main_arg0)) (m ((c : Thread nD τ).loc main_arg1)) (m ((c : Thread nD τ).loc main_arg2))
    (m ((c : Thread nD τ).loc main_arg3)) (m ((c : Thread nD τ).loc main_arg4))

/-- The block indices, decided over the 64 points: the input's and the output's block at point t is batch t; every
    other window stays on its one block. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- A point's number is a batch number. -/
theorem point_lt (t : Fin cfg0.N) : t.val < 64 := Nat.lt_of_lt_of_eq t.isLt (N_0 : cfg0.N = 64)

/-! ## The two bias columns, written by the reshapes in front of the kernel -/

/-- The first bias as the region finds it: the [32] vector as a [32, 1] column. -/
theorem V_bias1 (c : Dev nD) :
    (V m c main_v0 : S32x1.Idx → EReal) = shapeCast S32x1 (m ((c : Thread nD τ).loc main_arg2)) shapeCasts_S32_S32x1 := by
  dsimp only [Gen.V, Gen.hostOps0]
  after_results
  rfl

/-- The second bias as the region finds it: the [512] vector as a [512, 1] column. -/
theorem V_bias2 (c : Dev nD) :
    (V m c main_v1 : S512x1.Idx → EReal) = shapeCast S512x1 (m ((c : Thread nD τ).loc main_arg4)) shapeCasts_S512_S512x1 := by
  dsimp only [Gen.V, Gen.hostOps0]
  after_results
  rfl

/-! ## Each window's block at a point, as entries of the argument arrays -/

/-- The input block at point t is batch t of x. -/
theorem block_x (c : Dev nD) (t : Fin cfg0.N) (p : Fin 512) (l : Fin 4096) :
    (iblk m c 0 t : FVec Ideal S1x512x4096 .f32) (ix3 (0 : Fin 1) p l)
      = (m ((c : Thread nD τ).loc main_arg0) : S64x512x4096.Idx → EReal) (ix3 (⟨t.val, point_lt t⟩ : Fin 64) p l) := by
  obtain ⟨e0, e1, e2, -⟩ := block_indices t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = t.val; rw [e0]; omega
  | ⟨1, _⟩ => show win0_0.index t (1 : Fin 3) * 512 + 1 * p.val = p.val; rw [e1]; omega
  | ⟨2, _⟩ => show win0_0.index t (2 : Fin 3) * 4096 + 1 * l.val = l.val; rw [e2]; omega

/-- The first weight window holds the whole matrix. -/
theorem block_w1 (c : Dev nD) (t : Fin cfg0.N) (j : Fin 32) (p : Fin 512) :
    (iblk m c 1 t : FVec Ideal S32x512 .f32) (ix2 j p) = (m ((c : Thread nD τ).loc main_arg1) : S32x512.Idx → EReal) (ix2 j p) := by
  obtain ⟨-, -, -, e0, e1, -⟩ := block_indices t
  unfold iblk
  rw [View.read_apply]
  show V m c main_arg1 _ = _
  rw [V_main_arg1]
  refine congrArg _ (funext fun a => Fin.ext ?_)
  match a with
  | ⟨0, _⟩ => show win0_1.index t (0 : Fin 2) * 32 + 1 * j.val = j.val; rw [e0]; omega
  | ⟨1, _⟩ => show win0_1.index t (1 : Fin 2) * 512 + 1 * p.val = p.val; rw [e1]; omega

/-- The first bias window holds the bias as a column. -/
theorem block_b1 (c : Dev nD) (t : Fin cfg0.N) (j : Fin 32) :
    (iblk m c 2 t : FVec Ideal S32x1 .f32) (ix2 j (0 : Fin 1)) = (m ((c : Thread nD τ).loc main_arg2) : S32.Idx → EReal) (ix1 j) := by
  obtain ⟨-, -, -, -, -, e0, e1, -⟩ := block_indices t
  unfold iblk
  rw [View.read_apply]
  show V m c main_v0 _ = _
  rw [V_bias1]
  refine Eq.trans (congrArg _ (funext fun a => Fin.ext ?_)) (Cert.LibColumn.shapeCast_a_a1_apply _ shapeCasts_S32_S32x1 j (0 : Fin 1))
  match a with
  | ⟨0, _⟩ => show win0_2.index t (0 : Fin 2) * 32 + 1 * j.val = j.val; rw [e0]; omega
  | ⟨1, _⟩ => show win0_2.index t (1 : Fin 2) * 1 + 1 * 0 = 0; rw [e1]

/-- The second weight window holds the whole matrix. -/
theorem block_w2 (c : Dev nD) (t : Fin cfg0.N) (p : Fin 512) (j : Fin 32) :
    (iblk m c 3 t : FVec Ideal S512x32 .f32) (ix2 p j) = (m ((c : Thread nD τ).loc main_arg3) : S512x32.Idx → EReal) (ix2 p j) := by
  obtain ⟨-, -, -, -, -, -, -, e0, e1, -⟩ := block_indices t
  unfold iblk
  rw [View.read_apply]
  show V m c main_arg3 _ = _
  rw [V_main_arg3]
  refine congrArg _ (funext fun a => Fin.ext ?_)
  match a with
  | ⟨0, _⟩ => show win0_3.index t (0 : Fin 2) * 512 + 1 * p.val = p.val; rw [e0]; omega
  | ⟨1, _⟩ => show win0_3.index t (1 : Fin 2) * 32 + 1 * j.val = j.val; rw [e1]; omega

/-- The second bias window holds the bias as a column. -/
theorem block_b2 (c : Dev nD) (t : Fin cfg0.N) (p : Fin 512) :
    (iblk m c 4 t : FVec Ideal S512x1 .f32) (ix2 p (0 : Fin 1)) = (m ((c : Thread nD τ).loc main_arg4) : S512.Idx → EReal) (ix1 p) := by
  obtain ⟨-, -, -, -, -, -, -, -, -, e0, e1, -⟩ := block_indices t
  unfold iblk
  rw [View.read_apply]
  show V m c main_v1 _ = _
  rw [V_bias2]
  refine Eq.trans (congrArg _ (funext fun a => Fin.ext ?_)) (Cert.LibColumn.shapeCast_a_a1_apply _ shapeCasts_S512_S512x1 p (0 : Fin 1))
  match a with
  | ⟨0, _⟩ => show win0_4.index t (0 : Fin 2) * 512 + 1 * p.val = p.val; rw [e0]; omega
  | ⟨1, _⟩ => show win0_4.index t (1 : Fin 2) * 1 + 1 * 0 = 0; rw [e1]

/-! ## What a point writes back, the cover, the array -/

/-- WHAT POINT t WRITES BACK is batch t of the layer's result. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zero3]
  simp only [View.ld_unit_zero (S := S1x512x4096) zero3, View.ld_unit_zero (S := S32x512) zero2, View.ld_unit_zero (S := S32x1) zero2,
    View.ld_unit_zero (S := S512x32) zero2, View.ld_unit_zero (S := S512x1) zero2]
  obtain ⟨-, -, -, -, -, -, -, -, -, -, -, e0, e1, e2⟩ := block_indices t
  funext y
  obtain ⟨u, p, l, rfl⟩ : ∃ (u : Fin 1) (p : Fin 512) (l : Fin 4096), y = ix3 u p l := ⟨y 0, y 1, y 2, eq_ix3 y⟩
  show k0_pay1 (F := Ideal) (iblk m c 0 t) (iblk m c 1 t) (iblk m c 2 t) (iblk m c 3 t) (iblk m c 4 t) (ix3 u p l)
    = result m c (((cfg0.win 5).blk t).view.emb (ix3 u p l))
  have hemb : ((cfg0.win 5).blk t).view.emb (ix3 u p l) = ix3 (⟨t.val, point_lt t⟩ : Fin 64) p l := funext fun a => Fin.ext (by
    have hu : u.val = 0 := by omega
    match a with
    | ⟨0, _⟩ => show win0_5.index t (0 : Fin 3) * 1 + 1 * u.val = t.val; rw [e0, hu]; omega
    | ⟨1, _⟩ => show win0_5.index t (1 : Fin 3) * 512 + 1 * p.val = p.val; rw [e1]; omega
    | ⟨2, _⟩ => show win0_5.index t (2 : Fin 3) * 4096 + 1 * l.val = l.val; rw [e2]; omega)
  rw [hemb]
  exact Cert.ExciteBody.body_at (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) ⟨t.val, point_lt t⟩
    (block_x m c t) (block_w1 m c t) (block_b1 m c t) (block_w2 m c t) (block_b2 m c t) u p l

/-- An index of the result array is in point t's block iff each coordinate is in the block's range on its axis. -/
theorem mem_block (t : Fin cfg0.N) (i : S64x512x4096.Idx) :
    i ∈ ((cfg0.win 5).blk t).view.set ↔ ∀ a : Fin 3, win0_5.index t a * S1x512x4096.size a ≤ (i a).val
      ∧ (i a).val < win0_5.index t a * S1x512x4096.size a + S1x512x4096.size a := by
  show i ∈ ((View.whole main_v2).slice (win0_5.rect t)).set ↔ _
  rw [View.set_slice_whole, Rect.mem_set_unit]
  exact Iff.rfl

/-- THE COVER: index (b, c, l) is in the block of point b. -/
theorem cover (i : S64x512x4096.Idx) : ∃ t : Fin cfg0.N, (cfg0.win 5).flush t = true ∧ i ∈ ((cfg0.win 5).blk t).view.set := by
  have hN : cfg0.N = 64 := N_0
  have h0 : (i 0).val < 64 := (i 0).isLt
  have h1 : (i 1).val < 512 := (i 1).isLt
  have h2 : (i 2).val < 4096 := (i 2).isLt
  refine ⟨⟨(i 0).val, by rw [hN]; exact h0⟩, flush0_5 _, ?_⟩
  rw [mem_block]
  obtain ⟨-, -, -, -, -, -, -, -, -, -, -, e0, e1, e2⟩ := block_indices ⟨(i 0).val, by rw [hN]; exact h0⟩
  intro a
  match a with
  | ⟨0, _⟩ =>
    show win0_5.index _ (0 : Fin 3) * 1 ≤ (i 0).val ∧ (i 0).val < win0_5.index _ (0 : Fin 3) * 1 + 1
    rw [e0]
    show (i 0).val * 1 ≤ (i 0).val ∧ (i 0).val < (i 0).val * 1 + 1
    constructor <;> omega
  | ⟨1, _⟩ =>
    show win0_5.index _ (1 : Fin 3) * 512 ≤ (i 1).val ∧ (i 1).val < win0_5.index _ (1 : Fin 3) * 512 + 512
    rw [e1]; constructor <;> omega
  | ⟨2, _⟩ =>
    show win0_5.index _ (2 : Fin 3) * 4096 ≤ (i 2).val ∧ (i 2).val < win0_5.index _ (2 : Fin 3) * 4096 + 4096
    rw [e2]; constructor <;> omega

/-- THE ARRAY after the run is the layer's result. -/
theorem final (c : Dev nD) : (dats m 0 c).arrAt 5 cfg0.N = result m c :=
  (dats m 0 c).arrAt_eq_of_cover 5 (result m c) (fun t _ => flushed_eq m c t) cover

/-- The kernel's run, read: the result array at the layer's result of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.ExciteArray

end
-- ==== Proof.lean ====
/-
  A squeeze-and-excitation layer computed by one kernel, against the same layer written with array operations.

  For x of shape [64, 512, 4096] the layer takes each channel's mean over the 4096 positions, passes the 512 means of
  a batch through a two-layer perceptron (512 -> 32 with a cut-off at zero, 32 -> 512 with a sigmoid) and multiplies
  every entry of x by the gate of its batch and channel (`Excite.scaled`).

  The kernel runs on a grid of 64 points, one batch each: it sums the batch's rows, divides by 4096, forms the two
  matrix products with the means and the hidden units as columns, applies the one-operation sigmoid and scales the
  block. The reference sums over the last axis of the whole array, divides by 4096, multiplies by the transposed
  weight matrices and spells the sigmoid as 1 / (1 + exp (-y)). Over the extended reals these are one function: the
  divisor is the same number 4096 on both sides, a matrix product into a zero accumulator and the host's product are
  the same sum, the two spellings of the sigmoid are the same expression, and the only rearrangement is the order of
  the two factors inside each product — multiplication is commutative, at the infinities too, so the inputs'
  finiteness is never used.

  `ExciteReference` reads the reference down to `Excite.scaled`, `ExciteBody` the kernel's body on one batch,
  `ExciteArray` assembles the 64 written blocks into the result array. The three programs' runs (termination, no
  fault, arguments unchanged) are the generated ones; the idealized kernel is the kernel's own text, so there is
  nothing to preserve.
-/
import proofs.«160893_j19164144075614_1_alg».proof.Defs
import proofs.«160893_j19164144075614_1_alg».proof.Proof.Gen.Kernel
import proofs.«160893_j19164144075614_1_alg».proof.Proof.Gen.Kernel.Skeleton
import proofs.«160893_j19164144075614_1_alg».proof.Proof.Gen.Kernel.Launch
import proofs.«160893_j19164144075614_1_alg».proof.Proof.Gen.Kernel.Points
import proofs.«160893_j19164144075614_1_alg».proof.Proof.Gen.Kernel.Frame
import proofs.«160893_j19164144075614_1_alg».proof.Proof.Gen.KernelIdeal
import proofs.«160893_j19164144075614_1_alg».proof.Proof.Gen.KernelIdeal.Skeleton
import proofs.«160893_j19164144075614_1_alg».proof.Proof.Gen.KernelIdeal.Launch
import proofs.«160893_j19164144075614_1_alg».proof.Proof.Gen.KernelIdeal.Points
import proofs.«160893_j19164144075614_1_alg».proof.Proof.Gen.KernelIdeal.Frame
import proofs.«160893_j19164144075614_1_alg».proof.Proof.Gen.ReferenceIdeal
import proofs.«160893_j19164144075614_1_alg».proof.Proof.Gen.Pre_finite_inputs
import proofs.«160893_j19164144075614_1_alg».proof.Proof.Gen.KernelIdeal.Value
import proofs.«160893_j19164144075614_1_alg».proof.Proof.Gen.ReferenceIdeal.Run
import proofs.«160893_j19164144075614_1_alg».proof.Proof.Gen.ReferenceIdeal.Read
import proofs.«160893_j19164144075614_1_alg».proof.Proof.ExciteReference
import proofs.«160893_j19164144075614_1_alg».proof.Proof.ExciteArray
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the five arguments both programs end with the layer's result of those arguments. -/
theorem algebraic : Cert.algebraic_KernelIdeal_ReferenceIdeal := by
  intro m ρ m' ρ' _ hagree
  refine ⟨fun c => Cert.ExciteArray.result m c, Cert.ExciteArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v22_eq _ _ _ _ _).trans (Cert.ExciteReference.reference_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
